-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S50000x64 .f32) (main_arg1 : IVec S2x800000 32) (main_arg2 : FVec F S800000 .f32) (main_arg3 : FVec F S64x64 .f32) (main_arg4 : FVec F S64 .f32) (main_arg5 : FVec F S64x32 .f32) (main_arg6 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S10000x64 : Shape := ⟨2, ![10000, 64]⟩
abbrev S850000x64 : Shape := ⟨2, ![850000, 64]⟩
abbrev S1x64 : Shape := ⟨2, ![1, 64]⟩
abbrev S50000x32 : Shape := ⟨2, ![50000, 32]⟩
abbrev S10000x32 : Shape := ⟨2, ![10000, 32]⟩
abbrev S850000x32 : Shape := ⟨2, ![850000, 32]⟩
abbrev S12500x128 : Shape := ⟨2, ![12500, 128]⟩
abbrev S1x32 : Shape := ⟨2, ![1, 32]⟩
abbrev S4x32 : Shape := ⟨2, ![4, 32]⟩
abbrev S128 : Shape := ⟨1, ![128]⟩
abbrev S1x128 : Shape := ⟨2, ![1, 128]⟩

abbrev nBuf : Space → Nat
  | .hbm => 91
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x1, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S1x64, .f32⟩
  | .hbm, ⟨67, _⟩ => ⟨S50000x32, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x32, .f32⟩
  | .hbm, ⟨77, _⟩ => ⟨S850000x1, .f32⟩
  | .hbm, ⟨78, _⟩ => ⟨S850000x32, .f32⟩
  | .hbm, ⟨79, _⟩ => ⟨S850000x32, .f32⟩
  | .hbm, ⟨80, _⟩ => ⟨S_, .f32⟩
  | .hbm, ⟨81, _⟩ => ⟨S50000x32, .f32⟩
  | .hbm, ⟨82, _⟩ => ⟨S850000x1, .i32⟩
  | .hbm, ⟨83, _⟩ => ⟨S50000x32, .f32⟩
  | .hbm, ⟨84, _⟩ => ⟨S12500x128, .f32⟩
  | .hbm, ⟨85, _⟩ => ⟨S1x32, .f32⟩
  | .hbm, ⟨86, _⟩ => ⟨S4x32, .f32⟩
  | .hbm, ⟨87, _⟩ => ⟨S128, .f32⟩
  | .hbm, ⟨88, _⟩ => ⟨S1x128, .f32⟩
  | .hbm, ⟨89, _⟩ => ⟨S12500x128, .f32⟩
  | .hbm, ⟨90, _⟩ => ⟨S50000x32, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x32, .f32⟩
  | .local _ .vmem, ⟨9, _⟩ => ⟨S10000x32, .f32⟩
  | .local _ .vmem, ⟨10, _⟩ => ⟨S10000x32, .f32⟩
  | .local _ .vmem, ⟨11, _⟩ => ⟨S12500x128, .f32⟩
  | .local _ .vmem, ⟨12, _⟩ => ⟨S1x128, .f32⟩
  | .local _ .vmem, ⟨13, _⟩ => ⟨S12500x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem1_0 : DmaSem sig := 12
abbrev cc2_sem2_0 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S12500x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S12500x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  shapeCasts_S50000x32_S12500x128 : S50000x32.ShapeCasts S12500x128
  shapeCasts_S32_S1x32 : S32.ShapeCasts S1x32
  bcast_S1x32_S4x32_0_1 : S1x32.BroadcastsInDim S4x32 (![0, 1] : Fin 2 → Fin S4x32.rank)
  shapeCasts_S4x32_S128 : S4x32.ShapeCasts S128
  shapeCasts_S128_S1x128 : S128.ShapeCasts S1x128
  inb_S12500x128_S12500x128_0_0 : ∀ a, (![0, 0] : Fin 2 → Nat) a + S12500x128.size a ≤ S12500x128.size a
  h_S12500x128 : 0 < S12500x128.numel
  shapeCasts_S12500x128_S12500x128 : S12500x128.ShapeCasts S12500x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S12500x128 : S1x128.Broadcasts S12500x128
  shapeCasts_S12500x128_S50000x32 : S12500x128.ShapeCasts S50000x32
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x64_S64x64_S10000x64_1_0_0_1_n_n_wf : DotDims.WF S10000x64 S64x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x32_S10000x32_1_0_0_1_n_n_wf : DotDims.WF S10000x64 S64x32 S10000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S50000x32.size a
  hwx1_3 : ∀ i : grid1.Coords, EltTy.bits .f32 = 32 ∨ (Rect.block (s := S50000x32) S10000x32.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S12500x128.size a ≤ S12500x128.size a
  hwx2_0 : ∀ i : grid2.Coords, EltTy.bits .f32 = 32 ∨ (Rect.block (s := S12500x128) S12500x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S12500x128.size a ≤ S12500x128.size a
  hwx2_2 : ∀ i : grid2.Coords, EltTy.bits .f32 = 32 ∨ (Rect.block (s := S12500x128) S12500x128.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S12500x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v65) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S12500x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩

abbrev nBuf : Space → Nat
  | .hbm => 95
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x1, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | .hbm, ⟨69, _⟩ => ⟨S_, .f32⟩
  | .hbm, ⟨70, _⟩ => ⟨S50000x64, .f32⟩
  | .hbm, ⟨71, _⟩ => ⟨S50000x64, .f32⟩
  | .hbm, ⟨72, _⟩ => ⟨S50000x32, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x32, .f32⟩
  | .hbm, ⟨82, _⟩ => ⟨S850000x1, .f32⟩
  | .hbm, ⟨83, _⟩ => ⟨S850000x32, .f32⟩
  | .hbm, ⟨84, _⟩ => ⟨S850000x32, .f32⟩
  | .hbm, ⟨85, _⟩ => ⟨S_, .f32⟩
  | .hbm, ⟨86, _⟩ => ⟨S50000x32, .f32⟩
  | .hbm, ⟨87, _⟩ => ⟨S850000x1, .i32⟩
  | .hbm, ⟨88, _⟩ => ⟨S50000x32, .f32⟩
  | .hbm, ⟨89, _⟩ => ⟨S1x32, .f32⟩
  | .hbm, ⟨90, _⟩ => ⟨S50000x32, .f32⟩
  | .hbm, ⟨91, _⟩ => ⟨S50000x32, .f32⟩
  | .hbm, ⟨92, _⟩ => ⟨S_, .f32⟩
  | .hbm, ⟨93, _⟩ => ⟨S50000x32, .f32⟩
  | .hbm, ⟨94, _⟩ => ⟨S50000x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

class Facts : Prop extends Facts₀ where

variable [Facts]
-- ==== Proof.KernelRun.lean ====
/-
  The idealized kernel's whole run, with its result named.

  The program is three kernel launches among stretches of host operations. Every weakly fair execution terminates
  without a fault; at the end each argument array is as launched, and the result array holds what the last stretch
  of host operations leaves in it — the contents `Gen.W9`, the fold of the stretches and of the three launches'
  write-backs from the launch memory. The later modules read that fold stretch by stretch.
-/
import proofs.«134321_j31370441130066_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting; the result array ends at the
    last boundary's contents and the seven argument arrays end as launched. -/
theorem run_named : θ_run defs (onTc (τ := τ) (main (F := F))) ⟨m, fun _ => 0, ρ⟩ (fun r => ∀ c : Dev nD,
      r.2.mem ((c.tc : Thread nD τ).loc main_v67) = W9 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v67 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Whole

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibHostDot2.lean ====
/-
  The host's plain matrix product read at an index.

  A `dot_general` on the host with the dimension numbers of a plain matrix product ("contract axis 1 of the left operand
  with axis 0 of the right, no batch axes") of an [A, K] and a [K, B] matrix is, at the ideal values and at output
  position (p, q), the sum over k < K of left(p, k) · right(k, q): the host product has no accumulator, its contraction
  shape has the one axis of extent K, and the operand indices at output (p, q) and contraction position k are (p, k)
  and (k, q). It is the same sum a `tpu.matmul` of those dimension numbers into the zero accumulator computes
  (`Cert.Lib.matmul2_zero_apply`), so a kernel that multiplies block by block and a reference that multiplies once
  agree entry by entry.
-/
import proofs.«134321_j31370441130066_2_alg».proof.Proof.LibMatmul2

noncomputable section

namespace Cert.Lib

open Idealize.ShloMosaic Idealize.ShloMosaic.ValueIdx

variable {A K B : ℕ} {φ₁ φ₂ : FTy}

/-- At output position (p, q) and contraction position k the left operand of a plain product is read at (p, k), -/
theorem plain2_lhsIdx (wf : DotDims.WF ⟨2, ![A, K]⟩ ⟨2, ![K, B]⟩ ⟨2, ![A, B]⟩ [1] [0] [0] [1] [] [])
    (p : Fin A) (q : Fin B) (k : Fin K) :
    (plain2 wf).lhsIdx (ix2 p q) ((contrEquiv1 (plain2 wf) K (plain2_rank wf) (plain2_size wf)).symm k) = ix2 p k := by
  have hk := contrEquiv1_symm_val (plain2 wf) K (plain2_rank wf) (plain2_size wf) k
  funext a; apply Fin.ext
  match a with
  | ⟨0, _⟩ => simp [DotDims.lhsIdx]; rfl
  | ⟨1, _⟩ => exact (DotDims.lhsIdx_val_of_single (plain2 wf) (cl := 1) rfl (ix2 p q) _).trans hk

/-- and the right operand at (k, q). -/
theorem plain2_rhsIdx (wf : DotDims.WF ⟨2, ![A, K]⟩ ⟨2, ![K, B]⟩ ⟨2, ![A, B]⟩ [1] [0] [0] [1] [] [])
    (p : Fin A) (q : Fin B) (k : Fin K) :
    (plain2 wf).rhsIdx (ix2 p q) ((contrEquiv1 (plain2 wf) K (plain2_rank wf) (plain2_size wf)).symm k) = ix2 k q := by
  have hk := contrEquiv1_symm_val (plain2 wf) K (plain2_rank wf) (plain2_size wf) k
  funext a; apply Fin.ext
  match a with
  | ⟨0, _⟩ => exact (DotDims.rhsIdx_val_of_single (plain2 wf) (cr := 0) rfl (ix2 p q) _).trans hk
  | ⟨1, _⟩ => simp [DotDims.rhsIdx]; rfl

/-- The host's product at (p, q) is `∑ k, l (p, k) * r (k, q)`. -/
theorem hostDot2_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    Host.dotGeneral (plain2 wf) none l r (ix2 p q) = ∑ k : Fin K, l (ix2 p k) * r (ix2 k q) := by
  refine (Ideal.dotGeneral_apply (plain2 wf) none .single l r (ix2 p q)).trans ?_
  refine (Equiv.sum_comp (contrEquiv1 (plain2 wf) K (plain2_rank wf) (plain2_size wf)).symm _).symm.trans ?_
  refine Finset.sum_congr rfl fun k _ => ?_
  show l _ * r _ = _
  rw [plain2_lhsIdx, plain2_rhsIdx]

end Cert.Lib

end
-- ==== Proof.Layer1.lean ====
/-
  The first launch: the node features times the first weight matrix, five row blocks of 10000 rows.

  At the ideal values each launch point multiplies its 10000 x 64 block of rows by the whole 64 x 64 weight matrix
  into a zero accumulator, the two changes of float format being the identity. Entry (p, q) of block t is the sum
  over k of x(10000 t + p, k) * w(k, q), which is entry (10000 t + p, q) of the host's one product of the whole
  arrays. The five blocks tile the 50000 rows, so after the launch the output array IS that product.
-/
import proofs.«134321_j31370441130066_2_alg».proof.Proof.Gen.KernelIdeal.Frame
import proofs.«134321_j31370441130066_2_alg».proof.Proof.Gen.ReferenceIdeal
import proofs.«134321_j31370441130066_2_alg».proof.Proof.LibMatmul2
import proofs.«134321_j31370441130066_2_alg».proof.Proof.LibHostDot2
import Idealize.ShloMosaic.Lib.Pipeline.Value
import Idealize.ShloMosaic.Lib.ValueIdx
import Idealize.ShloMosaic.Lib.ValueLayout

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The host's product of the whole arrays as the launch finds them. -/
abbrev product (c : Dev nD) : FVec Ideal S50000x64 .f32 :=
  Host.dotGeneral (F := Ideal) (φ₁ := .f32) (φ₂ := .f32) Cert.ReferenceIdeal.dot_S50000x64_S64x64_S50000x64_1_0_0_1_n_n none
    (V c main_arg0 : FVec Ideal S50000x64 .f32) (V c main_arg3 : FVec Ideal S64x64 .f32)

/-- The body's one stored value at (p, q): the row p of the feature block against column q of the weights. -/
theorem stored_apply (x : Vec Ideal S10000x64 .f32) (w : Vec Ideal S64x64 .f32) (p : Fin 10000) (q : Fin 64) :
    k0_pay1 x w (ix2 p q) = ∑ k : Fin 64, x (ix2 p k) * w (ix2 k q) := by
  unfold k0_pay1
  exact Cert.Lib.matmul2_zero_apply (A := 10000) (K := 64) (B := 64) _ _ _ p q

/-- Block t of the features is rows 10000 t … 10000 t + 9999 of the array. -/
theorem rows_apply (c : Dev nD) (t : Fin cfg0.N) (x : S10000x64.Idx) (i : S50000x64.Idx)
    (h0 : (i 0).val = 10000 * t.val + (x 0).val) (h1 : (i 1).val = (x 1).val) :
    (iblk0 V c 0 t : Vec Ideal S10000x64 .f32) x = (V c main_arg0 : FVec Ideal S50000x64 .f32) i := by
  have hi : win0_0.index t 0 = t.val ∧ win0_0.index t 1 = 0 := by
    rcases fin_N0 t with rfl | rfl | rfl | rfl | rfl <;> decide
  unfold iblk0
  rw [View.read_apply]
  show V c main_arg0 _ = V c main_arg0 _
  congr 1
  funext a
  apply Fin.ext
  match a with
  | ⟨0, _⟩ => show win0_0.index t 0 * 10000 + 1 * (x 0).val = (i 0).val; rw [hi.1, h0]; omega
  | ⟨1, _⟩ => show win0_0.index t 1 * 64 + 1 * (x 1).val = (i 1).val; rw [hi.2, h1]; omega

/-- Every point sees the whole weight matrix. -/
theorem weights_apply (c : Dev nD) (t : Fin cfg0.N) (x : S64x64.Idx) :
    (iblk0 V c 1 t : Vec Ideal S64x64 .f32) x = (V c main_arg3 : FVec Ideal S64x64 .f32) x := by
  have hi : win0_1.index t 0 = 0 ∧ win0_1.index t 1 = 0 := by
    rcases fin_N0 t with rfl | rfl | rfl | rfl | rfl <;> decide
  unfold iblk0
  rw [View.read_apply]
  show V c main_arg3 _ = V c main_arg3 _
  congr 1
  funext a
  apply Fin.ext
  match a with
  | ⟨0, _⟩ => show win0_1.index t 0 * 64 + 1 * (x 0).val = (x 0).val; rw [hi.1]; omega
  | ⟨1, _⟩ => show win0_1.index t 1 * 64 + 1 * (x 1).val = (x 1).val; rw [hi.2]; omega

/-- What point t stores at y is the whole product at row 10000 t + y₀, column y₁. -/
theorem point_apply (c : Dev nD) (t : Fin cfg0.N) (y : S10000x64.Idx) (i : S50000x64.Idx)
    (h0 : (i 0).val = 10000 * t.val + (y 0).val) (h1 : (i 1).val = (y 1).val) :
    k0_pay1 (iblk0 V c 0 t : Vec Ideal S10000x64 .f32) (iblk0 V c 1 t : Vec Ideal S64x64 .f32) y = product V c i := by
  obtain ⟨p, q, rfl⟩ : ∃ (p : Fin 10000) (q : Fin 64), y = ix2 p q := ⟨y 0, y 1, eq_ix2 y⟩
  obtain ⟨P, Q, rfl⟩ : ∃ (P : Fin 50000) (Q : Fin 64), i = ix2 P Q := ⟨i 0, i 1, eq_ix2 i⟩
  have hQ : Q = q := Fin.ext h1
  subst hQ
  rw [stored_apply]
  refine Eq.trans ?_ (Cert.Lib.hostDot2_apply (A := 50000) (K := 64) (B := 64) _ _ _ P Q).symm
  refine Finset.sum_congr rfl fun k _ => ?_
  rw [rows_apply V c t (ix2 p k) (ix2 P k) h0 rfl, weights_apply V c t (ix2 k Q)]

/-- The output window's block index at point t is (t, 0). -/
theorem out_index (t : Fin cfg0.N) : win0_2.index t 0 = t.val ∧ win0_2.index t 1 = 0 := by
  rcases fin_N0 t with rfl | rfl | rfl | rfl | rfl <;> decide

/-- What point t writes back is block t of the whole product. -/
theorem flushed_eq (c : Dev nD) (t : Fin cfg0.N) :
    (dat0 V c).flushed 2 t = ((cfg0.win 2).blk t).view.read (Elt Ideal) (product V c) := by
  have hi := out_index t
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  funext y
  rw [View.read_apply]
  refine point_apply V c t y _ ?_ ?_
  · show win0_2.index t 0 * 10000 + 1 * (y 0).val = 10000 * t.val + (y 0).val
    rw [hi.1]; omega
  · show win0_2.index t 1 * 64 + 1 * (y 1).val = (y 1).val
    rw [hi.2]; omega

/-- An index is in point t's block iff its row is among the block's 10000 rows. -/
theorem mem_blk (t : Fin cfg0.N) (i : S50000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v32).slice (win0_2.rect t)).set ↔ _
  rw [View.set_slice_whole, Rect.mem_set_unit]
  exact Iff.rfl

/-- The five blocks tile the rows (row r is in block r / 10000), so the array ends as the whole product. -/
theorem arr_eq (c : Dev nD) : (dat0 V c).arrAt 2 cfg0.N = product V c :=
  (dat0 V c).arrAt_eq_of_cover 2 (product V c) (fun t _ => flushed_eq V c t) fun i => by
    have h0 : (i 0).val < 50000 := (i 0).isLt
    have h1 : (i 1).val < 64 := (i 1).isLt
    have hN : cfg0.N = 5 := N_0
    refine ⟨⟨(i 0).val / 10000, by rw [hN]; omega⟩, flush0_2 _, ?_⟩
    rw [mem_blk]
    have hi := out_index ⟨(i 0).val / 10000, by rw [hN]; omega⟩
    intro a
    match a with
    | ⟨0, _⟩ =>
      show win0_2.index _ 0 * 10000 ≤ (i 0).val ∧ (i 0).val < win0_2.index _ 0 * 10000 + 10000
      rw [hi.1]; show (i 0).val / 10000 * 10000 ≤ (i 0).val ∧ (i 0).val < (i 0).val / 10000 * 10000 + 10000; omega
    | ⟨1, _⟩ =>
      show win0_2.index _ 1 * 64 ≤ (i 1).val ∧ (i 1).val < win0_2.index _ 1 * 64 + 64
      rw [hi.2]; omega

end Cert.KernelIdeal.Layer1

end
-- ==== Proof.LibHostRowCol.lean ====
/-
  A host program's two ways of spreading a vector over a matrix, read at an entry.

  jnp's `v[None, :]` against a matrix prints as two `broadcast_in_dim`s: the vector `[n]` becomes the row `[1, n]` and
  the row is repeated to `[a, n]`; `v[:, None]` likewise makes the column `[a, 1]` and repeats it to `[a, n]`. Read at
  `(r, q)` the first is the vector at `q` and the second the vector at `r`. Generic in the extents and the element type.
-/
import Idealize.ShloMosaic.Lib.Pipeline.Value
import Idealize.ShloMosaic.Lib.ValueIdx

namespace Cert.Lib

open Idealize.ShloMosaic Idealize.ShloMosaic.ValueIdx

variable {α : Type}

/-- A vector made a row and repeated down the rows reads, at `(r, q)`, the vector at `q`. -/
theorem bcast_row_rows_apply {a n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![1, n]⟩ ![1] h1 v) (ix2 r q) = v (ix1 q) := by
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ =>
      show q.val = if n = 1 then 0 else q.val
      split
      · have := q.isLt; omega
      · rfl
  · match ax with
    | ⟨0, _⟩ =>
      show q.val = if n = 1 then 0 else q.val
      split
      · have := q.isLt; omega
      · rfl

/-- A vector made a column and repeated along the rows reads, at `(r, q)`, the vector at `r`. -/
theorem bcast_col_cols_apply {a n : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![a, 1]⟩ ![0] h1 v) (ix2 r q) = v (ix1 r) := by
  refine (broadcastInDim_apply _ h2 _ (ix2 r q) (ix2 r (0 : Fin 1)) fun ax => ?_).trans
    (broadcastInDim_apply _ h1 v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

end Cert.Lib
-- ==== Proof.LibHostBiasRelu.lean ====
/-
  A bias row added on the host, then a rectified linear unit, read at an entry.

  The host adds a bias vector of length B to every row of an [A, B] array by making the vector a [1, B] row and
  repeating it down the A rows, then takes the maximum with the all-zero array (the scalar zero repeated to [A, B]).
  At the ideal values entry (p, q) of the result is max (u (p, q) + bias q, 0): the repeated row reads the bias at the
  entry's column, and the repeated scalar reads zero everywhere.
-/
import proofs.«134321_j31370441130066_2_alg».proof.Proof.LibHostRowCol
import Idealize.ShloMosaic.Lib.Pipeline.Value
import Idealize.ShloMosaic.Lib.ValueIdx

noncomputable section

namespace Cert.Lib

open Idealize.ShloMosaic Idealize.ShloMosaic.ValueIdx

/-- A scalar repeated to any shape reads, at every index, the scalar. -/
theorem bcast_scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun a => a.elim0

/-- The host's bias-add and rectified linear unit at entry (p, q) is `max (u (p, q) + bias q) 0`. -/
theorem hostBiasRelu_apply {A B : ℕ} (u : FVec Ideal ⟨2, ![A, B]⟩ .f32) (bias : FVec Ideal ⟨1, ![B]⟩ .f32)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) (p : Fin A) (q : Fin B) :
    maximumf (addf u (broadcastInDim ⟨2, ![A, B]⟩ ![0, 1] h2 (broadcastInDim ⟨2, ![1, B]⟩ ![1] h1 bias)))
        (broadcastInDim ⟨2, ![A, B]⟩ ![] h0 (constant (F := Ideal) ⟨0, ![]⟩ .f32 0x00000000#32)) (ix2 p q)
      = max (u (ix2 p q) + bias (ix1 q)) (Ideal.ofBits .f32 0x00000000#32) := by
  rw [maximumf_apply, addf_apply, bcast_row_rows_apply bias h1 h2 p q, bcast_scalar_apply _ h0 (ix2 p q), constant_apply]

end Cert.Lib

end
-- ==== Proof.Layer2.lean ====
/-
  The second launch: bias, rectified linear unit and the second weight matrix, five row blocks of 10000 rows.

  At the ideal values each launch point adds the [1, 64] bias row to every row of its 10000 x 64 block of the
  aggregated features, takes the maximum with zero, and multiplies by the whole 64 x 32 weight matrix into a zero
  accumulator (the changes of float format are the identity). Entry (p, q) of block t is the sum over k of
  max (a(10000 t + p, k) + bias k, 0) * w(k, q) — entry (10000 t + p, q) of the host's one product of the
  rectified, biased whole array with the weights. The five blocks tile the 50000 rows, so after the launch the output
  array IS that product.
-/
import proofs.«134321_j31370441130066_2_alg».proof.Proof.Gen.KernelIdeal.Frame
import proofs.«134321_j31370441130066_2_alg».proof.Proof.Gen.ReferenceIdeal
import proofs.«134321_j31370441130066_2_alg».proof.Proof.LibMatmul2
import proofs.«134321_j31370441130066_2_alg».proof.Proof.LibHostDot2
import proofs.«134321_j31370441130066_2_alg».proof.Proof.LibHostBiasRelu
import Idealize.ShloMosaic.Lib.Pipeline.Value
import Idealize.ShloMosaic.Lib.ValueIdx
import Idealize.ShloMosaic.Lib.ValueLayout

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The host's bias-add, rectified linear unit and product of the whole arrays, the aggregated features and the
    weights as the launch finds them. -/
abbrev hidden (c : Dev nD) (bias : FVec Ideal Cert.ReferenceIdeal.S64 .f32) : FVec Ideal S50000x32 .f32 :=
  Host.dotGeneral (F := Ideal) (φ₁ := .f32) (φ₂ := .f32) Cert.ReferenceIdeal.dot_S50000x64_S64x32_S50000x32_1_0_0_1_n_n none
    (maximumf (addf (V c main_v45 : FVec Ideal S50000x64 .f32)
        (broadcastInDim Cert.ReferenceIdeal.S50000x64 ![0, 1] Cert.ReferenceIdeal.Facts₀.bcast_S1x64_S50000x64_0_1
          (broadcastInDim Cert.ReferenceIdeal.S1x64 ![1] Cert.ReferenceIdeal.Facts₀.bcast_S64_S1x64_1 bias)))
      (broadcastInDim Cert.ReferenceIdeal.S50000x64 ![] Cert.ReferenceIdeal.Facts₀.bcast_S_S50000x64
        (constant (F := Ideal) Cert.ReferenceIdeal.S_ .f32 0x00000000#32)))
    (V c main_arg5 : FVec Ideal S64x32 .f32)

/-- The body's one stored value at (p, q): row p of the block, biased and rectified, against column q of the weights. -/
theorem stored_apply (x : Vec Ideal S10000x64 .f32) (b : Vec Ideal S1x64 .f32) (w : Vec Ideal S64x32 .f32)
    (p : Fin 10000) (q : Fin 32) :
    k1_pay1 x b w (ix2 p q)
      = ∑ k : Fin 64, max (x (ix2 p k) + b (ix2 (0 : Fin 1) k)) (Ideal.ofBits .f32 0x00000000#32) * w (ix2 k q) := by
  unfold k1_pay1
  refine (Cert.Lib.matmul2_zero_apply (A := 10000) (K := 64) (B := 32) _ _ _ p q).trans ?_
  refine Finset.sum_congr rfl fun k _ => ?_
  rw [truncf_apply, truncf_apply, maximumf_apply, addf_apply, broadcast_apply, shapeCast_self, shapeCast_self,
    broadcastTo_1b_ab_apply]
  rfl

/-- Block t of the aggregated features is rows 10000 t … 10000 t + 9999 of the array. -/
theorem rows_apply (c : Dev nD) (t : Fin cfg1.N) (x : S10000x64.Idx) (i : S50000x64.Idx)
    (h0 : (i 0).val = 10000 * t.val + (x 0).val) (h1 : (i 1).val = (x 1).val) :
    (iblk1 V c 0 t : Vec Ideal S10000x64 .f32) x = (V c main_v45 : FVec Ideal S50000x64 .f32) i := by
  have hi : win1_0.index t 0 = t.val ∧ win1_0.index t 1 = 0 := by
    rcases fin_N1 t with rfl | rfl | rfl | rfl | rfl <;> decide
  unfold iblk1
  rw [View.read_apply]
  show V c main_v45 _ = V c main_v45 _
  congr 1
  funext a
  apply Fin.ext
  match a with
  | ⟨0, _⟩ => show win1_0.index t 0 * 10000 + 1 * (x 0).val = (i 0).val; rw [hi.1, h0]; omega
  | ⟨1, _⟩ => show win1_0.index t 1 * 64 + 1 * (x 1).val = (i 1).val; rw [hi.2, h1]; omega

/-- Every point sees the whole bias row, -/
theorem bias_apply (c : Dev nD) (t : Fin cfg1.N) (x : S1x64.Idx) :
    (iblk1 V c 1 t : Vec Ideal S1x64 .f32) x = (V c main_v46 : FVec Ideal S1x64 .f32) x := by
  have hi : win1_1.index t 0 = 0 ∧ win1_1.index t 1 = 0 := by
    rcases fin_N1 t with rfl | rfl | rfl | rfl | rfl <;> decide
  unfold iblk1
  rw [View.read_apply]
  show V c main_v46 _ = V c main_v46 _
  congr 1
  funext a
  apply Fin.ext
  match a with
  | ⟨0, _⟩ => show win1_1.index t 0 * 1 + 1 * (x 0).val = (x 0).val; rw [hi.1]; omega
  | ⟨1, _⟩ => show win1_1.index t 1 * 64 + 1 * (x 1).val = (x 1).val; rw [hi.2]; omega

/-- and the whole weight matrix. -/
theorem weights_apply (c : Dev nD) (t : Fin cfg1.N) (x : S64x32.Idx) :
    (iblk1 V c 2 t : Vec Ideal S64x32 .f32) x = (V c main_arg5 : FVec Ideal S64x32 .f32) x := by
  have hi : win1_2.index t 0 = 0 ∧ win1_2.index t 1 = 0 := by
    rcases fin_N1 t with rfl | rfl | rfl | rfl | rfl <;> decide
  unfold iblk1
  rw [View.read_apply]
  show V c main_arg5 _ = V c main_arg5 _
  congr 1
  funext a
  apply Fin.ext
  match a with
  | ⟨0, _⟩ => show win1_2.index t 0 * 64 + 1 * (x 0).val = (x 0).val; rw [hi.1]; omega
  | ⟨1, _⟩ => show win1_2.index t 1 * 32 + 1 * (x 1).val = (x 1).val; rw [hi.2]; omega

variable (bias : FVec Ideal Cert.ReferenceIdeal.S64 .f32)

/-- What point t stores at y is the host's whole result at row 10000 t + y₀, column y₁, when the [1, 64] row the
    launch finds holds the bias vector. -/
theorem point_apply (c : Dev nD) (hb : ∀ k : Fin 64, (V c main_v46 : FVec Ideal S1x64 .f32) (ix2 (0 : Fin 1) k) = bias (ix1 k))
    (t : Fin cfg1.N) (y : S10000x32.Idx) (i : S50000x32.Idx)
    (h0 : (i 0).val = 10000 * t.val + (y 0).val) (h1 : (i 1).val = (y 1).val) :
    k1_pay1 (iblk1 V c 0 t : Vec Ideal S10000x64 .f32) (iblk1 V c 1 t : Vec Ideal S1x64 .f32)
      (iblk1 V c 2 t : Vec Ideal S64x32 .f32) y = hidden V c bias i := by
  obtain ⟨p, q, rfl⟩ : ∃ (p : Fin 10000) (q : Fin 32), y = ix2 p q := ⟨y 0, y 1, eq_ix2 y⟩
  obtain ⟨P, Q, rfl⟩ : ∃ (P : Fin 50000) (Q : Fin 32), i = ix2 P Q := ⟨i 0, i 1, eq_ix2 i⟩
  have hQ : Q = q := Fin.ext h1
  subst hQ
  rw [stored_apply]
  refine Eq.trans ?_ (Cert.Lib.hostDot2_apply (A := 50000) (K := 64) (B := 32) _ _ _ P Q).symm
  refine Finset.sum_congr rfl fun k _ => ?_
  rw [Cert.Lib.hostBiasRelu_apply (A := 50000) (B := 64) _ bias _ _ _ P k,
    rows_apply V c t (ix2 p k) (ix2 P k) h0 rfl, bias_apply V c t (ix2 (0 : Fin 1) k), hb k,
    weights_apply V c t (ix2 k Q)]

/-- The output window's block index at point t is (t, 0). -/
theorem out_index (t : Fin cfg1.N) : win1_3.index t 0 = t.val ∧ win1_3.index t 1 = 0 := by
  rcases fin_N1 t with rfl | rfl | rfl | rfl | rfl <;> decide

/-- What point t writes back is block t of the host's whole result. -/
theorem flushed_eq (c : Dev nD) (hb : ∀ k : Fin 64, (V c main_v46 : FVec Ideal S1x64 .f32) (ix2 (0 : Fin 1) k) = bias (ix1 k))
    (t : Fin cfg1.N) :
    (dat1 V c).flushed 3 t = ((cfg1.win 3).blk t).view.read (Elt Ideal) (hidden V c bias) := by
  have hi := out_index t
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x32) hz]
  funext y
  rw [View.read_apply]
  refine point_apply V bias c hb t y _ ?_ ?_
  · show win1_3.index t 0 * 10000 + 1 * (y 0).val = 10000 * t.val + (y 0).val
    rw [hi.1]; omega
  · show win1_3.index t 1 * 32 + 1 * (y 1).val = (y 1).val
    rw [hi.2]; omega

/-- An index is in point t's block iff its row is among the block's 10000 rows. -/
theorem mem_blk (t : Fin cfg1.N) (i : S50000x32.Idx) :
    i ∈ ((cfg1.win 3).blk t).view.set ↔ ∀ a : Fin 2, win1_3.index t a * S10000x32.size a ≤ (i a).val
      ∧ (i a).val < win1_3.index t a * S10000x32.size a + S10000x32.size a := by
  show i ∈ ((View.whole main_v47).slice (win1_3.rect t)).set ↔ _
  rw [View.set_slice_whole, Rect.mem_set_unit]
  exact Iff.rfl

/-- The five blocks tile the rows, so the array ends as the host's whole result. -/
theorem arr_eq (c : Dev nD) (hb : ∀ k : Fin 64, (V c main_v46 : FVec Ideal S1x64 .f32) (ix2 (0 : Fin 1) k) = bias (ix1 k)) :
    (dat1 V c).arrAt 3 cfg1.N = hidden V c bias :=
  (dat1 V c).arrAt_eq_of_cover 3 (hidden V c bias) (fun t _ => flushed_eq V bias c hb t) fun i => by
    have h0 : (i 0).val < 50000 := (i 0).isLt
    have h1 : (i 1).val < 32 := (i 1).isLt
    have hN : cfg1.N = 5 := N_1
    refine ⟨⟨(i 0).val / 10000, by rw [hN]; omega⟩, flush1_3 _, ?_⟩
    rw [mem_blk]
    have hi := out_index ⟨(i 0).val / 10000, by rw [hN]; omega⟩
    intro a
    match a with
    | ⟨0, _⟩ =>
      show win1_3.index _ 0 * 10000 ≤ (i 0).val ∧ (i 0).val < win1_3.index _ 0 * 10000 + 10000
      rw [hi.1]; show (i 0).val / 10000 * 10000 ≤ (i 0).val ∧ (i 0).val < (i 0).val / 10000 * 10000 + 10000; omega
    | ⟨1, _⟩ =>
      show win1_3.index _ 1 * 32 ≤ (i 1).val ∧ (i 1).val < win1_3.index _ 1 * 32 + 32
      rw [hi.2]; omega

end Cert.KernelIdeal.Layer2

end
-- ==== Proof.Layer3.lean ====
/-
  The third launch: the last bias and rectified linear unit, on the 128-lane relayout, one launch point.

  The launch has a single point whose three blocks are the whole [12500, 128] input, the whole [1, 128] bias row and
  the whole [12500, 128] output. The body adds the row to every row of the input and takes the maximum with zero.
  So after the launch the output array is that pointwise expression of the two arrays the launch found.
-/
import proofs.«134321_j31370441130066_2_alg».proof.Proof.Gen.KernelIdeal.Frame
import proofs.«134321_j31370441130066_2_alg».proof.Proof.Gen.ReferenceIdeal

import Idealize.ShloMosaic.Lib.Pipeline.Value
import Idealize.ShloMosaic.Lib.ValueIdx
import Idealize.ShloMosaic.Lib.ValueLayout

set_option maxRecDepth 16384

noncomputable section

namespace Cert.KernelIdeal.Layer3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's pointwise expression of the whole arrays the launch finds. -/
abbrev rectified (c : Dev nD) : FVec Ideal S12500x128 .f32 :=
  k2_pay1 (F := Ideal) (V c main_v61 : Vec Ideal S12500x128 .f32) (V c main_v65 : Vec Ideal S1x128 .f32)

/-- The input window's one block is the whole input array, -/
theorem input_whole (c : Dev nD) (t : Fin cfg2.N) : iblk2 V c 0 t = (V c main_v61 : Vec Ideal S12500x128 .f32) := by
  obtain rfl := fin_N2 t
  have hz' : (fun a => win2_0.index t2_0 a * main_v61.ty.shape.size a) = fun _ => 0 := funext fun a => by fin_cases a <;> decide
  unfold iblk2
  exact Memref.read_access_unit_zero (Elt Ideal) main_v61 hz' (fun a => by rw [congrFun hz' a]; simp) (V c main_v61)

/-- and the bias window's one block is the whole bias row. -/
theorem bias_whole (c : Dev nD) (t : Fin cfg2.N) : iblk2 V c 1 t = (V c main_v65 : Vec Ideal S1x128 .f32) := by
  obtain rfl := fin_N2 t
  have hz' : (fun a => win2_1.index t2_0 a * main_v65.ty.shape.size a) = fun _ => 0 := funext fun a => by fin_cases a <;> decide
  unfold iblk2
  exact Memref.read_access_unit_zero (Elt Ideal) main_v65 hz' (fun a => by rw [congrFun hz' a]; simp) (V c main_v65)

/-- The one write-back writes the body's expression: block (0, 0) of the array read through zero offsets is the array. -/
theorem flushed_eq (c : Dev nD) (t : Fin cfg2.N) :
    (dat2 V c).flushed 2 t = ((cfg2.win 2).blk t).view.read (Elt Ideal) (rectified V c) := by
  show (cfg2.win 2).cut (grid2.coords t) ((dat2 V c).after 2 t) = _
  rw [after2_2, input_whole, bias_whole]
  obtain rfl := fin_N2 t
  unfold out2_2
  rw [View.canon_unit_zero hz]
  simp only [View.ld_unit_zero (S := S12500x128) hz, View.ld_unit_zero (S := S1x128) hz]
  have hz' : (fun a => win2_2.index t2_0 a * main_v66.ty.shape.size a) = fun _ => 0 := funext fun a => by fin_cases a <;> decide
  exact (Memref.read_access_unit_zero (Elt Ideal) main_v66 hz' (fun a => by rw [congrFun hz' a]; simp) (rectified V c)).symm

/-- The one block covers the array, so the array ends as the body's expression. -/
theorem arr_eq (c : Dev nD) : (dat2 V c).arrAt 2 cfg2.N = rectified V c :=
  (dat2 V c).arrAt_eq_of_cover 2 (rectified V c) (fun t _ => flushed_eq V c t) fun i =>
    ⟨t2_0, flush2_2 t2_0, by
      show i ∈ ((View.whole main_v66).slice (win2_2.rect t2_0)).set
      rw [View.set_slice_whole, Rect.mem_set_unit]
      intro a
      have h0 : (i 0 : Nat) < 12500 := (i 0).isLt
      have h1 : (i 1 : Nat) < 128 := (i 1).isLt
      match a with
      | ⟨0, _⟩ =>
        show win2_2.index t2_0 0 * win2_2.size 0 ≤ (i 0 : Nat) ∧ (i 0 : Nat) < win2_2.index t2_0 0 * win2_2.size 0 + win2_2.xsize (grid2.coords t2_0) 0
        rw [show win2_2.index t2_0 0 * win2_2.size 0 = 0 from by decide +kernel, show win2_2.xsize (grid2.coords t2_0) 0 = 12500 from by decide +kernel]; omega
      | ⟨1, _⟩ =>
        show win2_2.index t2_0 1 * win2_2.size 1 ≤ (i 1 : Nat) ∧ (i 1 : Nat) < win2_2.index t2_0 1 * win2_2.size 1 + win2_2.xsize (grid2.coords t2_0) 1
        rw [show win2_2.index t2_0 1 * win2_2.size 1 = 0 from by decide +kernel, show win2_2.xsize (grid2.coords t2_0) 1 = 128 from by decide +kernel]; omega⟩

end Cert.KernelIdeal.Layer3

end
-- ==== Proof.Norm.lean ====
/-
  The host operations before the first launch: the symmetric normalization of the edge weights.

  Both programs begin with the same operations on the edge list and the edge weights: the source and destination
  lists with one self loop per node appended, the weights with a one per self loop appended, the weighted in-degree
  of every node by a scatter-add, its reciprocal square root where the degree is positive and zero elsewhere, and
  the per-edge coefficient dinv(src) * weight * dinv(dst). The kernel's program runs them in three stretches (the
  degree; the choice between the reciprocal square root and zero; the coefficients). Read stretch by stretch, from
  any contents U of the device's buffers, each buffer that a later operation reads holds the corresponding stage of
  the reference program at the same edge list and weights; no stretch writes an argument array.
-/
import proofs.«134321_j31370441130066_2_alg».proof.Proof.Gen.KernelIdeal.Frame
import proofs.«134321_j31370441130066_2_alg».proof.Proof.Gen.ReferenceIdeal.Read
import Idealize.ShloMosaic.Lib.StableHlo.Run

set_option maxRecDepth 16384

noncomputable section

namespace Cert.KernelIdeal.Norm

open Cert.KernelIdeal Cert.KernelIdeal.Gen Cert.ReferenceIdeal.Read
open Idealize.ShloMosaic Idealize.ShloMosaic.TcCoe Idealize.SL.Sem Idealize.ShloMosaic.StableHlo

variable (U : Valuation τ sig (Elt Ideal))

/-! ## The first stretch: the lists with self loops, the degree, its sign and its reciprocal square root -/

theorem deg_src : after (hostOps0 (F := Ideal)) U (Proc.devRef .tc main_v3)
    = val_main_v3 (F := Ideal) (U (Proc.devRef .tc main_arg1)) := by
  after_results; rfl

theorem deg_dst : after (hostOps0 (F := Ideal)) U (Proc.devRef .tc main_v6)
    = val_main_v6 (F := Ideal) (U (Proc.devRef .tc main_arg1)) := by
  after_results; rfl

theorem deg_weights : after (hostOps0 (F := Ideal)) U (Proc.devRef .tc main_v8)
    = val_main_v8 (F := Ideal) (U (Proc.devRef .tc main_arg2)) := by
  after_results; rfl

theorem deg_positive : after (hostOps0 (F := Ideal)) U (Proc.devRef .tc main_v13)
    = val_main_v13 (F := Ideal) (U (Proc.devRef .tc main_arg1)) (U (Proc.devRef .tc main_arg2)) := by
  after_results; rfl

theorem deg_rsqrt : after (hostOps0 (F := Ideal)) U (Proc.devRef .tc main_v14)
    = val_main_v14 (F := Ideal) (U (Proc.devRef .tc main_arg1)) (U (Proc.devRef .tc main_arg2)) := by
  after_results; rfl

theorem deg_zero : after (hostOps0 (F := Ideal)) U (Proc.devRef .tc main_cst_2) = val_main_cst_2 (F := Ideal) := by
  after_results; rfl

/-! ## The second stretch: the reciprocal square root where the degree is positive, zero elsewhere -/

variable (x1 : (⟨Cert.ReferenceIdeal.S2x800000, .i32⟩ : BufTy).Contents (Elt Ideal))
  (x2 : (⟨Cert.ReferenceIdeal.S800000, .f32⟩ : BufTy).Contents (Elt Ideal))

/-- The stretch's one result, of the three buffers it reads. -/
theorem dinv_read : after (hostOps0_1 (F := Ideal)) U (Proc.devRef .tc main_v15)
    = select (U (Proc.devRef .tc main_v13) : IVec S50000 1) (U (Proc.devRef .tc main_v14) : FVec Ideal S50000 .f32)
        (broadcastInDim S50000 ![] bcast_S_S50000 (id (U (Proc.devRef .tc main_cst_2) : FVec Ideal S_ .f32))) := by
  after_results_simp
  rfl

theorem dinv (h13 : U (Proc.devRef .tc main_v13) = val_main_v13 (F := Ideal) x1 x2)
    (h14 : U (Proc.devRef .tc main_v14) = val_main_v14 (F := Ideal) x1 x2)
    (hc : U (Proc.devRef .tc main_cst_2) = val_main_cst_2 (F := Ideal)) :
    after (hostOps0_1 (F := Ideal)) U (Proc.devRef .tc main_v15) = val_main_v15 (F := Ideal) x1 x2 := by
  rw [dinv_read, h13, h14, hc]
  rfl

/-! ## The third stretch: the coefficient of every edge -/

theorem coeff (h15 : U (Proc.devRef .tc main_v15) = val_main_v15 (F := Ideal) x1 x2)
    (h3 : U (Proc.devRef .tc main_v3) = val_main_v3 (F := Ideal) x1)
    (h6 : U (Proc.devRef .tc main_v6) = val_main_v6 (F := Ideal) x1)
    (h8 : U (Proc.devRef .tc main_v8) = val_main_v8 (F := Ideal) x2) :
    after (hostOps0_2 (F := Ideal)) U (Proc.devRef .tc main_v31) = val_main_v31 (F := Ideal) x1 x2 := by
  after_results_simp
  rw [h15, h3, h6, h8]
  rfl

/-! ## What the three stretches leave alone: the arrays later operations and launches read -/

theorem keep_hostOps0_arg0 : after (hostOps0 (F := Ideal)) U (Proc.devRef .tc main_arg0) = U (Proc.devRef .tc main_arg0) := by
  after_results_simp
theorem keep_hostOps0_arg3 : after (hostOps0 (F := Ideal)) U (Proc.devRef .tc main_arg3) = U (Proc.devRef .tc main_arg3) := by
  after_results_simp
theorem keep_hostOps0_arg4 : after (hostOps0 (F := Ideal)) U (Proc.devRef .tc main_arg4) = U (Proc.devRef .tc main_arg4) := by
  after_results_simp
theorem keep_hostOps0_arg5 : after (hostOps0 (F := Ideal)) U (Proc.devRef .tc main_arg5) = U (Proc.devRef .tc main_arg5) := by
  after_results_simp
theorem keep_hostOps0_arg6 : after (hostOps0 (F := Ideal)) U (Proc.devRef .tc main_arg6) = U (Proc.devRef .tc main_arg6) := by
  after_results_simp
theorem keep_hostOps0_1_arg0 : after (hostOps0_1 (F := Ideal)) U (Proc.devRef .tc main_arg0) = U (Proc.devRef .tc main_arg0) := by
  after_results_simp
theorem keep_hostOps0_1_arg3 : after (hostOps0_1 (F := Ideal)) U (Proc.devRef .tc main_arg3) = U (Proc.devRef .tc main_arg3) := by
  after_results_simp
theorem keep_hostOps0_1_arg4 : after (hostOps0_1 (F := Ideal)) U (Proc.devRef .tc main_arg4) = U (Proc.devRef .tc main_arg4) := by
  after_results_simp
theorem keep_hostOps0_1_arg5 : after (hostOps0_1 (F := Ideal)) U (Proc.devRef .tc main_arg5) = U (Proc.devRef .tc main_arg5) := by
  after_results_simp
theorem keep_hostOps0_1_arg6 : after (hostOps0_1 (F := Ideal)) U (Proc.devRef .tc main_arg6) = U (Proc.devRef .tc main_arg6) := by
  after_results_simp
theorem keep_hostOps0_1_v3 : after (hostOps0_1 (F := Ideal)) U (Proc.devRef .tc main_v3) = U (Proc.devRef .tc main_v3) := by
  after_results_simp
theorem keep_hostOps0_1_v6 : after (hostOps0_1 (F := Ideal)) U (Proc.devRef .tc main_v6) = U (Proc.devRef .tc main_v6) := by
  after_results_simp
theorem keep_hostOps0_1_v8 : after (hostOps0_1 (F := Ideal)) U (Proc.devRef .tc main_v8) = U (Proc.devRef .tc main_v8) := by
  after_results_simp
theorem keep_hostOps0_2_arg0 : after (hostOps0_2 (F := Ideal)) U (Proc.devRef .tc main_arg0) = U (Proc.devRef .tc main_arg0) := by
  after_results_simp
theorem keep_hostOps0_2_arg3 : after (hostOps0_2 (F := Ideal)) U (Proc.devRef .tc main_arg3) = U (Proc.devRef .tc main_arg3) := by
  after_results_simp
theorem keep_hostOps0_2_arg4 : after (hostOps0_2 (F := Ideal)) U (Proc.devRef .tc main_arg4) = U (Proc.devRef .tc main_arg4) := by
  after_results_simp
theorem keep_hostOps0_2_arg5 : after (hostOps0_2 (F := Ideal)) U (Proc.devRef .tc main_arg5) = U (Proc.devRef .tc main_arg5) := by
  after_results_simp
theorem keep_hostOps0_2_arg6 : after (hostOps0_2 (F := Ideal)) U (Proc.devRef .tc main_arg6) = U (Proc.devRef .tc main_arg6) := by
  after_results_simp
theorem keep_hostOps0_2_v3 : after (hostOps0_2 (F := Ideal)) U (Proc.devRef .tc main_v3) = U (Proc.devRef .tc main_v3) := by
  after_results_simp
theorem keep_hostOps0_2_v6 : after (hostOps0_2 (F := Ideal)) U (Proc.devRef .tc main_v6) = U (Proc.devRef .tc main_v6) := by
  after_results_simp

end Cert.KernelIdeal.Norm

end
-- ==== Proof.Aggregate.lean ====
/-
  The host operations between the launches: gather the rows by source node, scale by the edge's coefficient, and
  scatter-add by destination node — once on 64 columns after the first launch, once on 32 columns after the second.

  Both programs apply the same operations here; only the array that is gathered from differs in how it was produced
  (a launch in the kernel's program, a host product in the reference). So from any contents U of the device's buffers
  in which the gathered array, the two node lists and the coefficients hold the reference's stages, the scattered
  array holds the reference's next stage. The kernel's program also relays arrays for its launches: the first bias
  as a [1, 64] row; the second aggregate as [12500, 128]; the second bias tiled four times into a [1, 128] row.
-/
import proofs.«134321_j31370441130066_2_alg».proof.Proof.Gen.KernelIdeal.Frame
import proofs.«134321_j31370441130066_2_alg».proof.Proof.Gen.ReferenceIdeal.Read
import Idealize.ShloMosaic.Lib.StableHlo.Run
import Idealize.ShloMosaic.Lib.ValueIdx
import Idealize.ShloMosaic.Lib.ValueLayout

set_option maxRecDepth 16384

noncomputable section

namespace Cert.KernelIdeal.Aggregate

open Cert.KernelIdeal Cert.KernelIdeal.Gen Cert.ReferenceIdeal.Read
open Idealize.ShloMosaic Idealize.ShloMosaic.TcCoe Idealize.SL.Sem Idealize.ShloMosaic.StableHlo Idealize.ShloMosaic.ValueIdx

variable (U : Valuation τ sig (Elt Ideal))
variable (x0 : (⟨Cert.ReferenceIdeal.S50000x64, .f32⟩ : BufTy).Contents (Elt Ideal))
  (x1 : (⟨Cert.ReferenceIdeal.S2x800000, .i32⟩ : BufTy).Contents (Elt Ideal))
  (x2 : (⟨Cert.ReferenceIdeal.S800000, .f32⟩ : BufTy).Contents (Elt Ideal))
  (x3 : (⟨Cert.ReferenceIdeal.S64x64, .f32⟩ : BufTy).Contents (Elt Ideal))
  (x4 : (⟨Cert.ReferenceIdeal.S64, .f32⟩ : BufTy).Contents (Elt Ideal))
  (x5 : (⟨Cert.ReferenceIdeal.S64x32, .f32⟩ : BufTy).Contents (Elt Ideal))

/-! ## After the first launch -/

/-- The 64-column aggregate. -/
theorem first (h32 : U (Proc.devRef .tc main_v32) = val_main_v32 (F := Ideal) x0 x3)
    (h3 : U (Proc.devRef .tc main_v3) = val_main_v3 (F := Ideal) x1)
    (h6 : U (Proc.devRef .tc main_v6) = val_main_v6 (F := Ideal) x1)
    (h31 : U (Proc.devRef .tc main_v31) = val_main_v31 (F := Ideal) x1 x2) :
    after (hostOps1 (F := Ideal)) U (Proc.devRef .tc main_v45) = val_main_v45 (F := Ideal) x0 x1 x2 x3 := by
  after_results_simp
  rw [h32, h3, h6, h31]
  rfl

/-- The first bias as a [1, 64] row reads, at column k, the bias at k. -/
theorem first_bias_row (k : Fin 64) :
    (after (hostOps1 (F := Ideal)) U (Proc.devRef .tc main_v46) : FVec Ideal S1x64 .f32) (ix2 (0 : Fin 1) k)
      = (U (Proc.devRef .tc main_arg4) : FVec Ideal S64 .f32) (ix1 k) := by
  after_results_simp
  exact shapeCast_a_1a_apply _ _ (0 : Fin 1) k

/-- What the stretch after the first launch leaves alone. -/
theorem keep_hostOps1_arg5 : after (hostOps1 (F := Ideal)) U (Proc.devRef .tc main_arg5) = U (Proc.devRef .tc main_arg5) := by
  after_results_simp
theorem keep_hostOps1_arg6 : after (hostOps1 (F := Ideal)) U (Proc.devRef .tc main_arg6) = U (Proc.devRef .tc main_arg6) := by
  after_results_simp
theorem keep_hostOps1_v3 : after (hostOps1 (F := Ideal)) U (Proc.devRef .tc main_v3) = U (Proc.devRef .tc main_v3) := by
  after_results_simp
theorem keep_hostOps1_v6 : after (hostOps1 (F := Ideal)) U (Proc.devRef .tc main_v6) = U (Proc.devRef .tc main_v6) := by
  after_results_simp
theorem keep_hostOps1_v31 : after (hostOps1 (F := Ideal)) U (Proc.devRef .tc main_v31) = U (Proc.devRef .tc main_v31) := by
  after_results_simp

/-! ## After the second launch -/

/-- The 32-column aggregate, relaid as [12500, 128]. -/
theorem second_lanes (h47 : U (Proc.devRef .tc main_v47) = val_main_v50 (F := Ideal) x0 x1 x2 x3 x4 x5)
    (h3 : U (Proc.devRef .tc main_v3) = val_main_v3 (F := Ideal) x1)
    (h6 : U (Proc.devRef .tc main_v6) = val_main_v6 (F := Ideal) x1)
    (h31 : U (Proc.devRef .tc main_v31) = val_main_v31 (F := Ideal) x1 x2) :
    (after (hostOps2 (F := Ideal)) U (Proc.devRef .tc main_v61) : FVec Ideal S12500x128 .f32)
      = shapeCast S12500x128 (val_main_v63 (F := Ideal) x0 x1 x2 x3 x4 x5 : FVec Ideal S50000x32 .f32)
          shapeCasts_S50000x32_S12500x128 := by
  after_results_simp
  rw [h47, h3, h6, h31]
  rfl

/-- The second bias tiled four times into a [1, 128] row. -/
theorem second_bias_row :
    (after (hostOps2 (F := Ideal)) U (Proc.devRef .tc main_v65) : FVec Ideal S1x128 .f32)
      = shapeCast S1x128 (shapeCast S128 (broadcastInDim S4x32 ![0, 1] bcast_S1x32_S4x32_0_1
          (shapeCast S1x32 (U (Proc.devRef .tc main_arg6) : FVec Ideal S32 .f32) shapeCasts_S32_S1x32))
          shapeCasts_S4x32_S128) shapeCasts_S128_S1x128 := by
  after_results_simp
  rfl

/-! ## After the third launch -/

/-- The result is the third launch's output relaid as [50000, 32]. -/
theorem last :
    (after (hostOps3 (F := Ideal)) U (Proc.devRef .tc main_v67) : FVec Ideal S50000x32 .f32)
      = shapeCast S50000x32 (U (Proc.devRef .tc main_v66) : FVec Ideal S12500x128 .f32) shapeCasts_S12500x128_S50000x32 := by
  after_results_simp
  rfl

end Cert.KernelIdeal.Aggregate

end
-- ==== Proof.Through.lean ====
/-
  The idealized kernel's buffers at each boundary of its run, against the reference's stages.

  The run goes: three stretches of host operations (the normalization), the first launch, a stretch (gather, scale,
  scatter-add on 64 columns; the first bias as a row), the second launch, a stretch (the same on 32 columns; the two
  relayouts for the last launch), the third launch, and one last relayout. At each boundary the buffers that are read
  later hold the reference program's stages at the kernel's own arguments:
    * after the normalization: the source list, the destination list and the per-edge coefficients;
    * after the first launch: the product of the features with the first weights (the launch's five row blocks
      ARE the host's one product);
    * after the next stretch: the 64-column aggregate, and the bias row;
    * after the second launch: the product of the rectified, biased aggregate with the second weights;
    * after the next stretch: the 32-column aggregate relaid to 128 lanes, and the second bias tiled four times;
    * after the third launch: the bias added and the maximum with zero taken, on the 128-lane layout.
  No stretch and no launch writes an argument array or a list it only reads.
-/
import proofs.«134321_j31370441130066_2_alg».proof.Proof.Layer1
import proofs.«134321_j31370441130066_2_alg».proof.Proof.Layer2
import proofs.«134321_j31370441130066_2_alg».proof.Proof.Layer3
import proofs.«134321_j31370441130066_2_alg».proof.Proof.Norm
import proofs.«134321_j31370441130066_2_alg».proof.Proof.Aggregate

set_option maxRecDepth 16384

noncomputable section

namespace Cert.KernelIdeal.Through

open Cert.KernelIdeal Cert.KernelIdeal.Gen Cert.ReferenceIdeal.Read
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The kernel's seven argument arrays on core c, as launched. -/
abbrev a0 : (⟨Cert.ReferenceIdeal.S50000x64, .f32⟩ : BufTy).Contents (Elt Ideal) := m ((c : Thread nD τ).loc main_arg0)
abbrev a1 : (⟨Cert.ReferenceIdeal.S2x800000, .i32⟩ : BufTy).Contents (Elt Ideal) := m ((c : Thread nD τ).loc main_arg1)
abbrev a2 : (⟨Cert.ReferenceIdeal.S800000, .f32⟩ : BufTy).Contents (Elt Ideal) := m ((c : Thread nD τ).loc main_arg2)
abbrev a3 : (⟨Cert.ReferenceIdeal.S64x64, .f32⟩ : BufTy).Contents (Elt Ideal) := m ((c : Thread nD τ).loc main_arg3)
abbrev a4 : (⟨Cert.ReferenceIdeal.S64, .f32⟩ : BufTy).Contents (Elt Ideal) := m ((c : Thread nD τ).loc main_arg4)
abbrev a5 : (⟨Cert.ReferenceIdeal.S64x32, .f32⟩ : BufTy).Contents (Elt Ideal) := m ((c : Thread nD τ).loc main_arg5)
abbrev a6 : (⟨Cert.ReferenceIdeal.S32, .f32⟩ : BufTy).Contents (Elt Ideal) := m ((c : Thread nD τ).loc main_arg6)

/-! ## The normalization -/

theorem W1_v3 : W1 m ρ c (Proc.devRef .tc main_v3) = val_main_v3 (F := Ideal) (a1 m c) := Norm.deg_src (W0 m ρ c)
theorem W1_v6 : W1 m ρ c (Proc.devRef .tc main_v6) = val_main_v6 (F := Ideal) (a1 m c) := Norm.deg_dst (W0 m ρ c)
theorem W1_v8 : W1 m ρ c (Proc.devRef .tc main_v8) = val_main_v8 (F := Ideal) (a2 m c) := Norm.deg_weights (W0 m ρ c)
theorem W1_v13 : W1 m ρ c (Proc.devRef .tc main_v13) = val_main_v13 (F := Ideal) (a1 m c) (a2 m c) := Norm.deg_positive (W0 m ρ c)
theorem W1_v14 : W1 m ρ c (Proc.devRef .tc main_v14) = val_main_v14 (F := Ideal) (a1 m c) (a2 m c) := Norm.deg_rsqrt (W0 m ρ c)
theorem W1_cst2 : W1 m ρ c (Proc.devRef .tc main_cst_2) = val_main_cst_2 (F := Ideal) := Norm.deg_zero (W0 m ρ c)

theorem W2_v15 : W2 m ρ c (Proc.devRef .tc main_v15) = val_main_v15 (F := Ideal) (a1 m c) (a2 m c) :=
  Norm.dinv (W1 m ρ c) (a1 m c) (a2 m c) (W1_v13 m ρ c) (W1_v14 m ρ c) (W1_cst2 m ρ c)
theorem W2_v3 : W2 m ρ c (Proc.devRef .tc main_v3) = val_main_v3 (F := Ideal) (a1 m c) :=
  (Norm.keep_hostOps0_1_v3 (W1 m ρ c)).trans (W1_v3 m ρ c)
theorem W2_v6 : W2 m ρ c (Proc.devRef .tc main_v6) = val_main_v6 (F := Ideal) (a1 m c) :=
  (Norm.keep_hostOps0_1_v6 (W1 m ρ c)).trans (W1_v6 m ρ c)
theorem W2_v8 : W2 m ρ c (Proc.devRef .tc main_v8) = val_main_v8 (F := Ideal) (a2 m c) :=
  (Norm.keep_hostOps0_1_v8 (W1 m ρ c)).trans (W1_v8 m ρ c)

theorem W3_v31 : W3 m ρ c (Proc.devRef .tc main_v31) = val_main_v31 (F := Ideal) (a1 m c) (a2 m c) :=
  Norm.coeff (W2 m ρ c) (a1 m c) (a2 m c) (W2_v15 m ρ c) (W2_v3 m ρ c) (W2_v6 m ρ c) (W2_v8 m ρ c)
theorem W3_v3 : W3 m ρ c (Proc.devRef .tc main_v3) = val_main_v3 (F := Ideal) (a1 m c) :=
  (Norm.keep_hostOps0_2_v3 (W2 m ρ c)).trans (W2_v3 m ρ c)
theorem W3_v6 : W3 m ρ c (Proc.devRef .tc main_v6) = val_main_v6 (F := Ideal) (a1 m c) :=
  (Norm.keep_hostOps0_2_v6 (W2 m ρ c)).trans (W2_v6 m ρ c)
theorem W3_arg0 : W3 m ρ c (Proc.devRef .tc main_arg0) = a0 m c :=
  (Norm.keep_hostOps0_2_arg0 (W2 m ρ c)).trans ((Norm.keep_hostOps0_1_arg0 (W1 m ρ c)).trans (Norm.keep_hostOps0_arg0 (W0 m ρ c)))
theorem W3_arg3 : W3 m ρ c (Proc.devRef .tc main_arg3) = a3 m c :=
  (Norm.keep_hostOps0_2_arg3 (W2 m ρ c)).trans ((Norm.keep_hostOps0_1_arg3 (W1 m ρ c)).trans (Norm.keep_hostOps0_arg3 (W0 m ρ c)))
theorem W3_arg4 : W3 m ρ c (Proc.devRef .tc main_arg4) = a4 m c :=
  (Norm.keep_hostOps0_2_arg4 (W2 m ρ c)).trans ((Norm.keep_hostOps0_1_arg4 (W1 m ρ c)).trans (Norm.keep_hostOps0_arg4 (W0 m ρ c)))
theorem W3_arg5 : W3 m ρ c (Proc.devRef .tc main_arg5) = a5 m c :=
  (Norm.keep_hostOps0_2_arg5 (W2 m ρ c)).trans ((Norm.keep_hostOps0_1_arg5 (W1 m ρ c)).trans (Norm.keep_hostOps0_arg5 (W0 m ρ c)))
theorem W3_arg6 : W3 m ρ c (Proc.devRef .tc main_arg6) = a6 m c :=
  (Norm.keep_hostOps0_2_arg6 (W2 m ρ c)).trans ((Norm.keep_hostOps0_1_arg6 (W1 m ρ c)).trans (Norm.keep_hostOps0_arg6 (W0 m ρ c)))

/-! ## The first launch -/

theorem W4_v32 : W4 m ρ c (Proc.devRef .tc main_v32) = val_main_v32 (F := Ideal) (a0 m c) (a3 m c) := by
  refine (W4_arr m ρ c 2).trans ((Layer1.arr_eq (V3 m ρ) c).trans ?_)
  show Host.dotGeneral (F := Ideal) (φ₁ := .f32) (φ₂ := .f32) Cert.ReferenceIdeal.dot_S50000x64_S64x64_S50000x64_1_0_0_1_n_n none
    (W3 m ρ c (Proc.devRef .tc main_arg0)) (W3 m ρ c (Proc.devRef .tc main_arg3)) = _
  rw [W3_arg0, W3_arg3]
  rfl
theorem W4_v3 : W4 m ρ c (Proc.devRef .tc main_v3) = val_main_v3 (F := Ideal) (a1 m c) :=
  (W4_of_ne m ρ c main_v3 (by decide)).trans (W3_v3 m ρ c)
theorem W4_v6 : W4 m ρ c (Proc.devRef .tc main_v6) = val_main_v6 (F := Ideal) (a1 m c) :=
  (W4_of_ne m ρ c main_v6 (by decide)).trans (W3_v6 m ρ c)
theorem W4_v31 : W4 m ρ c (Proc.devRef .tc main_v31) = val_main_v31 (F := Ideal) (a1 m c) (a2 m c) :=
  (W4_of_ne m ρ c main_v31 (by decide)).trans (W3_v31 m ρ c)
theorem W4_arg4 : W4 m ρ c (Proc.devRef .tc main_arg4) = a4 m c :=
  (W4_of_ne m ρ c main_arg4 (by decide)).trans (W3_arg4 m ρ c)
theorem W4_arg5 : W4 m ρ c (Proc.devRef .tc main_arg5) = a5 m c :=
  (W4_of_ne m ρ c main_arg5 (by decide)).trans (W3_arg5 m ρ c)
theorem W4_arg6 : W4 m ρ c (Proc.devRef .tc main_arg6) = a6 m c :=
  (W4_of_ne m ρ c main_arg6 (by decide)).trans (W3_arg6 m ρ c)

/-! ## The 64-column aggregate and the first bias row -/

theorem W5_v45 : W5 m ρ c (Proc.devRef .tc main_v45) = val_main_v45 (F := Ideal) (a0 m c) (a1 m c) (a2 m c) (a3 m c) :=
  Aggregate.first (W4 m ρ c) (a0 m c) (a1 m c) (a2 m c) (a3 m c) (W4_v32 m ρ c) (W4_v3 m ρ c) (W4_v6 m ρ c) (W4_v31 m ρ c)
theorem W5_v46 (k : Fin 64) :
    (W5 m ρ c (Proc.devRef .tc main_v46) : FVec Ideal S1x64 .f32) (ix2 (0 : Fin 1) k) = (a4 m c : FVec Ideal Cert.ReferenceIdeal.S64 .f32) (ix1 k) :=
  (Aggregate.first_bias_row (W4 m ρ c) k).trans (congrFun (W4_arg4 m ρ c) (ix1 k))
theorem W5_v3 : W5 m ρ c (Proc.devRef .tc main_v3) = val_main_v3 (F := Ideal) (a1 m c) :=
  (Aggregate.keep_hostOps1_v3 (W4 m ρ c)).trans (W4_v3 m ρ c)
theorem W5_v6 : W5 m ρ c (Proc.devRef .tc main_v6) = val_main_v6 (F := Ideal) (a1 m c) :=
  (Aggregate.keep_hostOps1_v6 (W4 m ρ c)).trans (W4_v6 m ρ c)
theorem W5_v31 : W5 m ρ c (Proc.devRef .tc main_v31) = val_main_v31 (F := Ideal) (a1 m c) (a2 m c) :=
  (Aggregate.keep_hostOps1_v31 (W4 m ρ c)).trans (W4_v31 m ρ c)
theorem W5_arg5 : W5 m ρ c (Proc.devRef .tc main_arg5) = a5 m c :=
  (Aggregate.keep_hostOps1_arg5 (W4 m ρ c)).trans (W4_arg5 m ρ c)
theorem W5_arg6 : W5 m ρ c (Proc.devRef .tc main_arg6) = a6 m c :=
  (Aggregate.keep_hostOps1_arg6 (W4 m ρ c)).trans (W4_arg6 m ρ c)

/-! ## The second launch -/

theorem W6_v47 : W6 m ρ c (Proc.devRef .tc main_v47)
    = val_main_v50 (F := Ideal) (a0 m c) (a1 m c) (a2 m c) (a3 m c) (a4 m c) (a5 m c) := by
  refine (W6_arr m ρ c 3).trans ((Layer2.arr_eq (V5 m ρ) (a4 m c) c (W5_v46 m ρ c)).trans ?_)
  show Host.dotGeneral (F := Ideal) (φ₁ := .f32) (φ₂ := .f32) Cert.ReferenceIdeal.dot_S50000x64_S64x32_S50000x32_1_0_0_1_n_n none
    (maximumf (addf (W5 m ρ c (Proc.devRef .tc main_v45) : FVec Ideal S50000x64 .f32)
        (broadcastInDim Cert.ReferenceIdeal.S50000x64 ![0, 1] Cert.ReferenceIdeal.Facts₀.bcast_S1x64_S50000x64_0_1
          (broadcastInDim Cert.ReferenceIdeal.S1x64 ![1] Cert.ReferenceIdeal.Facts₀.bcast_S64_S1x64_1 (a4 m c))))
      (broadcastInDim Cert.ReferenceIdeal.S50000x64 ![] Cert.ReferenceIdeal.Facts₀.bcast_S_S50000x64
        (constant (F := Ideal) Cert.ReferenceIdeal.S_ .f32 0x00000000#32)))
    (W5 m ρ c (Proc.devRef .tc main_arg5)) = _
  rw [W5_v45, W5_arg5]
  rfl
theorem W6_v3 : W6 m ρ c (Proc.devRef .tc main_v3) = val_main_v3 (F := Ideal) (a1 m c) :=
  (W6_of_ne m ρ c main_v3 (by decide)).trans (W5_v3 m ρ c)
theorem W6_v6 : W6 m ρ c (Proc.devRef .tc main_v6) = val_main_v6 (F := Ideal) (a1 m c) :=
  (W6_of_ne m ρ c main_v6 (by decide)).trans (W5_v6 m ρ c)
theorem W6_v31 : W6 m ρ c (Proc.devRef .tc main_v31) = val_main_v31 (F := Ideal) (a1 m c) (a2 m c) :=
  (W6_of_ne m ρ c main_v31 (by decide)).trans (W5_v31 m ρ c)
theorem W6_arg6 : W6 m ρ c (Proc.devRef .tc main_arg6) = a6 m c :=
  (W6_of_ne m ρ c main_arg6 (by decide)).trans (W5_arg6 m ρ c)

/-! ## The 32-column aggregate on 128 lanes, and the tiled second bias -/

theorem W7_v61 : (W7 m ρ c (Proc.devRef .tc main_v61) : FVec Ideal S12500x128 .f32)
    = shapeCast S12500x128 (val_main_v63 (F := Ideal) (a0 m c) (a1 m c) (a2 m c) (a3 m c) (a4 m c) (a5 m c) : FVec Ideal S50000x32 .f32)
        shapeCasts_S50000x32_S12500x128 :=
  Aggregate.second_lanes (W6 m ρ c) (a0 m c) (a1 m c) (a2 m c) (a3 m c) (a4 m c) (a5 m c)
    (W6_v47 m ρ c) (W6_v3 m ρ c) (W6_v6 m ρ c) (W6_v31 m ρ c)
theorem W7_v65 : (W7 m ρ c (Proc.devRef .tc main_v65) : FVec Ideal S1x128 .f32)
    = shapeCast S1x128 (shapeCast S128 (broadcastInDim S4x32 ![0, 1] bcast_S1x32_S4x32_0_1
        (shapeCast S1x32 (a6 m c : FVec Ideal S32 .f32) shapeCasts_S32_S1x32)) shapeCasts_S4x32_S128) shapeCasts_S128_S1x128 := by
  refine (Aggregate.second_bias_row (W6 m ρ c)).trans ?_
  rw [W6_arg6]

/-! ## The third launch and the last relayout -/

theorem W8_v66 : (W8 m ρ c (Proc.devRef .tc main_v66) : FVec Ideal S12500x128 .f32) = Layer3.rectified (V7 m ρ) c :=
  (W8_arr m ρ c 2).trans (Layer3.arr_eq (V7 m ρ) c)

theorem W9_v67 : (W9 m ρ c (Proc.devRef .tc main_v67) : FVec Ideal S50000x32 .f32)
    = shapeCast S50000x32 (Layer3.rectified (V7 m ρ) c) shapeCasts_S12500x128_S50000x32 := by
  refine (Aggregate.last (W8 m ρ c)).trans ?_
  rw [W8_v66]

end Cert.KernelIdeal.Through

end
-- ==== Proof.LibRelayout.lean ====
/-
  Row-major relayouts read at an entry.

  A reshape keeps every element at its flat row-major position. So an [a, b] matrix relaid as [c, d] reads at (p, q)
  the element at the (r, s) with r b + s = p d + q, and flattened to a vector reads at j the element at the (r, s)
  with r b + s = j. A [1, n] row repeated down k rows reads at (p, q) the row at q. Put together: a vector of length n
  made a row, repeated k times, flattened to length k n and made a row again — the vector tiled k times — reads at
  position L the vector at L mod n.
-/
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx

variable {α : Type}

/-- An `[a, b]` matrix relaid row-major as `[c, d]` reads, at `(p, q)`, the element with the same flat position. -/
theorem reshape_ab_cd_apply {a b c d : ℕ} (x : (⟨2, ![a, b]⟩ : Shape).Idx → α)
    (h : (⟨2, ![a, b]⟩ : Shape).ShapeCasts ⟨2, ![c, d]⟩) (p : Fin c) (q : Fin d) (r : Fin a) (s : Fin b)
    (hk : r.val * b + s.val = p.val * d + q.val) :
    shapeCast ⟨2, ![c, d]⟩ x h (ix2 p q) = x (ix2 r s) :=
  shapeCast_apply x h _ _ (by
    rw [Shape.rowMajor_val_two, Shape.rowMajor_val_two]
    exact hk)

/-- An `[a, b]` matrix flattened row-major reads, at `j`, the element at the `(r, s)` with `r b + s = j`. -/
theorem flatten_ab_apply {a b n : ℕ} (x : (⟨2, ![a, b]⟩ : Shape).Idx → α)
    (h : (⟨2, ![a, b]⟩ : Shape).ShapeCasts ⟨1, ![n]⟩) (j : Fin n) (r : Fin a) (s : Fin b)
    (hk : r.val * b + s.val = j.val) :
    shapeCast ⟨1, ![n]⟩ x h (ix1 j) = x (ix2 r s) :=
  shapeCast_apply x h _ _ (by
    rw [Shape.rowMajor_val_two, Shape.rowMajor_val_one]
    exact hk)

/-- A `[1, b]` row repeated down `a` rows by the host reads, at `(p, q)`, the row at `q`. -/
theorem hostRows_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h v (ix2 p q) = v (ix2 (0 : Fin 1) q) :=
  broadcastInDim_apply ![0, 1] h v (ix2 p q) (ix2 (0 : Fin 1) q) fun ax => by
    match ax with
    | ⟨0, _⟩ => rfl
    | ⟨1, _⟩ =>
      show q.val = if b = 1 then 0 else q.val
      split_ifs with hb
      · have := q.isLt; omega
      · rfl

/-- A vector of length `n` tiled `k` times into a `[1, k n]` row reads, at position `L`, the vector at `L mod n`. -/
theorem tiledRow_apply {k n N : ℕ} (v : (⟨1, ![n]⟩ : Shape).Idx → α)
    (h1 : (⟨1, ![n]⟩ : Shape).ShapeCasts ⟨2, ![1, n]⟩)
    (h2 : (⟨2, ![1, n]⟩ : Shape).BroadcastsInDim ⟨2, ![k, n]⟩ (![0, 1] : Fin 2 → Fin 2))
    (h3 : (⟨2, ![k, n]⟩ : Shape).ShapeCasts ⟨1, ![N]⟩)
    (h4 : (⟨1, ![N]⟩ : Shape).ShapeCasts ⟨2, ![1, N]⟩)
    (hN : N = k * n) (hn : 0 < n) (L : Fin N) :
    shapeCast ⟨2, ![1, N]⟩ (shapeCast ⟨1, ![N]⟩
        (broadcastInDim ⟨2, ![k, n]⟩ ![0, 1] h2 (shapeCast ⟨2, ![1, n]⟩ v h1)) h3) h4 (ix2 (0 : Fin 1) L)
      = v (ix1 ⟨L.val % n, Nat.mod_lt _ hn⟩) := by
  have hL : L.val / n < k := Nat.div_lt_of_lt_mul (by rw [Nat.mul_comm, ← hN]; exact L.isLt)
  rw [shapeCast_a_1a_apply _ h4 (0 : Fin 1) L,
    flatten_ab_apply _ h3 L ⟨L.val / n, hL⟩ ⟨L.val % n, Nat.mod_lt _ hn⟩ (Nat.div_add_mod' L.val n),
    hostRows_apply _ h2 ⟨L.val / n, hL⟩ ⟨L.val % n, Nat.mod_lt _ hn⟩,
    shapeCast_a_1a_apply _ h1 (0 : Fin 1) ⟨L.val % n, Nat.mod_lt _ hn⟩]

end Cert.Lib

end
-- ==== Proof.Final.lean ====
/-
  The result array, entry by entry.

  Entry (r, q) of the kernel's result sits at flat position 32 r + q, that is at row R = (32 r + q) / 128 and lane
  L = (32 r + q) mod 128 of the 128-lane layout the third launch works on. There the launch computed
  max (agg (R, L) + row L, 0), where agg on 128 lanes at (R, L) is the 32-column aggregate at (r, q) — the same flat
  position — and the tiled bias row at L is the second bias at L mod 32 = q, because 32 divides 128. The reference
  adds the bias at q to the aggregate at (r, q) and takes the maximum with zero. The two aggregates are the same
  stage, so the two results agree at every entry.
-/
import proofs.«134321_j31370441130066_2_alg».proof.Proof.Through
import proofs.«134321_j31370441130066_2_alg».proof.Proof.LibRelayout
import proofs.«134321_j31370441130066_2_alg».proof.Proof.LibHostBiasRelu

set_option maxRecDepth 16384

noncomputable section

namespace Cert.KernelIdeal.Final

open Cert.KernelIdeal Cert.KernelIdeal.Gen Cert.ReferenceIdeal.Read Cert.KernelIdeal.Through
open Idealize.ShloMosaic Idealize.ShloMosaic.TcCoe Idealize.SL.Sem Idealize.ShloMosaic.StableHlo Idealize.ShloMosaic.ValueIdx

/-- The third launch's stored value at (R, L): the input plus the bias row at lane L, rectified. -/
theorem stored_apply (x : Vec Ideal S12500x128 .f32) (b : Vec Ideal S1x128 .f32) (R : Fin 12500) (L : Fin 128) :
    k2_pay1 x b (ix2 R L) = max (x (ix2 R L) + b (ix2 (0 : Fin 1) L)) (Ideal.ofBits .f32 0x00000000#32) := by
  unfold k2_pay1
  rw [maximumf_apply, addf_apply, broadcast_apply, shapeCast_self, shapeCast_self, broadcastTo_1b_ab_apply]
  rfl

variable (m : (ℓ : Loc nD τ sig) → Buf (Elt Ideal) ℓ) (ρ : Dev nD → PrngReg) (c : Dev nD)

/-- The kernel's result array is the reference's last stage at the kernel's arguments. -/
theorem result_eq : (W9 m ρ c (Proc.devRef .tc main_v67) : FVec Ideal S50000x32 .f32)
    = val_main_v67 (F := Ideal) (a0 m c) (a1 m c) (a2 m c) (a3 m c) (a4 m c) (a5 m c) (a6 m c) := by
  rw [W9_v67]
  funext i
  obtain ⟨r, q, rfl⟩ : ∃ (r : Fin 50000) (q : Fin 32), i = ix2 r q := ⟨i 0, i 1, eq_ix2 i⟩
  have hr := r.isLt
  have hq := q.isLt
  have hR : (r.val * 32 + q.val) / 128 < 12500 := by omega
  have hL : (r.val * 32 + q.val) % 128 < 128 := Nat.mod_lt _ (by decide)
  have hM : (r.val * 32 + q.val) % 128 % 32 < 32 := Nat.mod_lt _ (by decide)
  rw [Cert.Lib.reshape_ab_cd_apply (a := 12500) (b := 128) (c := 50000) (d := 32) _ _ r q
    ⟨(r.val * 32 + q.val) / 128, hR⟩ ⟨(r.val * 32 + q.val) % 128, hL⟩ (Nat.div_add_mod' _ _)]
  show k2_pay1 (F := Ideal) (W7 m ρ c (Proc.devRef .tc main_v61) : Vec Ideal S12500x128 .f32)
    (W7 m ρ c (Proc.devRef .tc main_v65) : Vec Ideal S1x128 .f32)
    (ix2 ⟨(r.val * 32 + q.val) / 128, hR⟩ ⟨(r.val * 32 + q.val) % 128, hL⟩) = _
  rw [stored_apply, W7_v61, W7_v65,
    Cert.Lib.reshape_ab_cd_apply (a := 50000) (b := 32) (c := 12500) (d := 128) _ _
      ⟨(r.val * 32 + q.val) / 128, hR⟩ ⟨(r.val * 32 + q.val) % 128, hL⟩ r q (Nat.div_add_mod' _ _).symm,
    Cert.Lib.tiledRow_apply (k := 4) (n := 32) (N := 128) _ _ _ _ _ rfl (by decide) ⟨(r.val * 32 + q.val) % 128, hL⟩]
  have hq' : (⟨(r.val * 32 + q.val) % 128 % 32, hM⟩ : Fin 32) = q := Fin.ext (by
    show (r.val * 32 + q.val) % 128 % 32 = q.val
    omega)
  rw [hq']
  unfold val_main_v67 val_main_v66 val_main_v65 val_main_v64 val_main_call2_v0 val_main_call2_cst
  exact (Cert.Lib.hostBiasRelu_apply (A := 50000) (B := 32) _ (a6 m c) _ _ _ r q).symm

end Cert.KernelIdeal.Final

end
-- ==== Proof.lean ====
/-
  Two layers of graph convolution with symmetric normalization: the kernel against the reference, at the ideal values.

  Both programs compute, for node features x, an edge list with weights, and two weight matrices with biases,
      z = relu (A (relu (A (x W1) + b1) W2) + b2),
  where A is "gather the rows by source node, scale by dinv(src) * weight * dinv(dst), scatter-add by destination
  node" over the edges with one self loop per node appended. The normalization and the two applications of A are
  the same host operations in both programs. The kernel's program differs in three places, each a kernel launch:
    * x W1 is computed in five blocks of 10000 rows (with the operands narrowed to a shorter float format first);
    * relu (. + b1) W2 likewise, the bias added and the maximum taken inside the launch;
    * the last relu (. + b2) is computed on a relayout of the [50000, 32] array as [12500, 128], with the bias tiled
      four times along the 128 lanes.
  At the ideal values a change of float format is the identity, a product into a zero accumulator is the plain sum
  over the contracted axis, so a row block of a product is the rows of the whole product; and a row-major relayout
  moves no element, the tiled bias reading b2 (L mod 32) at lane L. Hence the two results agree entry by entry. No
  algebraic law beyond reading both sides as the same sums is needed, and the inputs' finiteness is not used.

  The three frame claims: the kernel's two by the generated frame certificates, the reference's by its generated run.
  The idealization rewrote no operation, so there is nothing to preserve.
-/
import proofs.«134321_j31370441130066_2_alg».proof.Defs
import proofs.«134321_j31370441130066_2_alg».proof.Proof.Gen.Kernel
import proofs.«134321_j31370441130066_2_alg».proof.Proof.Gen.Kernel.Frame
import proofs.«134321_j31370441130066_2_alg».proof.Proof.Gen.KernelIdeal
import proofs.«134321_j31370441130066_2_alg».proof.Proof.Gen.KernelIdeal.Frame
import proofs.«134321_j31370441130066_2_alg».proof.Proof.Gen.ReferenceIdeal
import proofs.«134321_j31370441130066_2_alg».proof.Proof.Gen.ReferenceIdeal.Run
import proofs.«134321_j31370441130066_2_alg».proof.Proof.Gen.ReferenceIdeal.Read
import proofs.«134321_j31370441130066_2_alg».proof.Proof.Gen.Pre_finite_inputs
import proofs.«134321_j31370441130066_2_alg».proof.Proof.KernelRun
import proofs.«134321_j31370441130066_2_alg».proof.Proof.Final
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the seven arguments both programs end with the same result array: the kernel's is
    the reference's last stage at the kernel's arguments, and the reference's run ends at that stage of its own. -/
theorem algebraic : Cert.algebraic_KernelIdeal_ReferenceIdeal := by
  intro m ρ m' ρ' _ hagree
  refine ⟨fun c => Cert.KernelIdeal.Gen.W9 m ρ c (Proc.devRef .tc Cert.KernelIdeal.main_v67),
    Cert.KernelIdeal.Whole.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  show Cert.ReferenceIdeal.Value.res_main_v67 m' c
    = Cert.KernelIdeal.Gen.W9 m ρ c (Proc.devRef .tc Cert.KernelIdeal.main_v67)
  rw [Cert.ReferenceIdeal.Read.val_main_v67_eq, e0, e1, e2, e3, e4, e5, e6]
  exact (Cert.KernelIdeal.Final.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
